-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8192x512 .f32) (main_arg1 : FVec F S8192x8192 .f32) (main_arg2 : FVec F S512x256 .f32) (main_arg3 : FVec F S256x256 .f32) (main_arg4 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S256 : Shape := ⟨1, ![256]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S8192x256 : Shape := ⟨2, ![8192, 256]⟩
abbrev S1x256 : Shape := ⟨2, ![1, 256]⟩
abbrev S256x8192 : Shape := ⟨2, ![256, 8192]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x256, .f32⟩
  | .hbm, ⟨4, _⟩ => ⟨S256, .f32⟩
  | .hbm, ⟨5, _⟩ => ⟨S8192x1, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .bf16⟩
  | .hbm, ⟨10, _⟩ => ⟨S256x256, .f32⟩
  | .hbm, ⟨11, _⟩ => ⟨S1x256, .f32⟩
  | .hbm, ⟨12, _⟩ => ⟨S8192x256, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S256x8192, .f32⟩
  | .local _ .vmem, ⟨5, _⟩ => ⟨S256x8192, .f32⟩
  | .local _ .vmem, ⟨6, _⟩ => ⟨S8192x256, .bf16⟩
  | .local _ .vmem, ⟨7, _⟩ => ⟨S256x1, .f32⟩
  | .local _ .vmem, ⟨8, _⟩ => ⟨S256x1, .f32⟩
  | .local _ .vmem, ⟨9, _⟩ => ⟨S256x256, .f32⟩
  | .local _ .vmem, ⟨10, _⟩ => ⟨S1x256, .f32⟩
  | .local _ .vmem, ⟨11, _⟩ => ⟨S256x256, .f32⟩
  | .local _ .vmem, ⟨12, _⟩ => ⟨S256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v9 : BitVec 32 := Scalar.muli arg0 c256_i32
  v9
def k1_off1 (i : grid1.Coords) : Fin 2 → Nat :=
  let arg0 : BitVec 32 := BitVec.ofNat 32 (i 0).val
  let c256_i32 : BitVec 32 := 256#32
  let v9 : BitVec 32 := Scalar.muli arg0 c256_i32
  let v10 : BitVec 32 := v9
  let v11 : Index := Scalar.indexCast v10
  let c0_6 : Index := 0#32
  ![v11.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bcast_S8192x1_S8192x256_0_1 : S8192x1.BroadcastsInDim S8192x256 (![0, 1] : Fin 2 → Fin S8192x256.rank)
  bitsLt_bf16_f32 : FTy.bits .bf16 < FTy.bits .f32
  transposes_S256x256_S256x256_1_0 : S256x256.Transposes [1, 0] S256x256
  shapeCasts_S256_S1x256 : S256.ShapeCasts S1x256
  inb_S256x8192_S256x8192_0_0 : ∀ a, (![0, 0] : Fin 2 → Nat) a + S256x8192.size a ≤ S256x8192.size a
  h_S256x8192 : 0 < S256x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  inb_S256x256_S256x256_0_0 : ∀ a, (![0, 0] : Fin 2 → Nat) a + S256x256.size a ≤ S256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S8192x512_S512x256_S8192x256_1_0_0_1_n_n_wf : DotDims.WF S8192x512 S512x256 S8192x256 [1] [0] [0] [1] [] []
  dot_S256x8192_S8192x256_S256x256_1_0_0_1_n_n_wf : DotDims.WF S256x8192 S8192x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S8192x256.size a
  hwx1_5 : ∀ i : grid1.Coords, EltTy.bits .f32 = 32 ∨ (Rect.block (s := S8192x256) S256x256.size (cc1_transform_5 i) (hinb1_5 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S1x256 : Shape := ⟨2, ![1, 256]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S_, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x512, .f32⟩
  | .hbm, ⟨32, _⟩ => ⟨S8192x256, .f32⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S256x256, .f32⟩
  | .hbm, ⟨37, _⟩ => ⟨S8192x256, .f32⟩
  | .hbm, ⟨38, _⟩ => ⟨S1x256, .f32⟩
  | .hbm, ⟨39, _⟩ => ⟨S8192x256, .f32⟩
  | .hbm, ⟨40, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Spec.lean ====
/-
  The two closed forms of a normalized graph-convolution layer followed by a linear layer, over the extended reals, index by
  index on the literal shapes: adjacency weights [8192, 8192], features [8192, 512], feature weights [512, 256], the linear
  layer's matrix [256, 256] and bias [256].

  An adjacency weight above one half is an edge (`edge`, the value 1 or 0). With self-loops added, node i has degree
  1 + the number of its edges, and `dinv i` is that degree to the power -1/2.

  • `out`  (the self-loop kept apart, the degree scalings moved onto the projected features):
      relu( dinv i · ( Σ_j edge(i,j) · (dinv j · (x·w)(j,p)) + dinv i · (x·w)(i,p) ) ), then the linear layer.
  • `outR` (the normalized adjacency matrix formed first, applied to the features, then projected):
      relu( Σ_k ( Σ_j ((edge(i,j) + [i = j]) · dinvR i · dinvR j) · x(j,k) ) · w(k,p) ), then the same linear layer.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The index types of the five arguments and of the result. -/
abbrev AdjIdx := (⟨2, ![8192, 8192]⟩ : Shape).Idx
abbrev XIdx := (⟨2, ![8192, 512]⟩ : Shape).Idx
abbrev WIdx := (⟨2, ![512, 256]⟩ : Shape).Idx
abbrev LwIdx := (⟨2, ![256, 256]⟩ : Shape).Idx
abbrev LbIdx := (⟨1, ![256]⟩ : Shape).Idx
abbrev OutIdx := (⟨2, ![8192, 256]⟩ : Shape).Idx

/-- An adjacency weight counts as an edge (1) when it is above one half, and as no edge (0) otherwise. -/
def edge (a : EReal) : EReal :=
  Scalar.select (Ideal.cmp .ogt a (Ideal.ofBits .f32 0x3F000000#32)) (1 : EReal) 0

/-- Node `i`'s degree with its self-loop: the number of its edges, plus one. -/
def deg (adj : AdjIdx → EReal) (i : Fin 8192) : EReal := (∑ j : Fin 8192, edge (adj (ix2 i j))) + 1

/-- The degree to the power -1/2. -/
def dinv (adj : AdjIdx → EReal) (i : Fin 8192) : EReal := Ideal.rsqrt (deg adj i)

/-- The projected features `x · w` at node `j`, output feature `p`. -/
def xw (x : XIdx → EReal) (w : WIdx → EReal) (j : Fin 8192) (p : Fin 256) : EReal :=
  ∑ k : Fin 512, x (ix2 j k) * w (ix2 k p)

/-- The hidden layer, the self-loop's term kept apart from the edges' sum. -/
def hidden (adj : AdjIdx → EReal) (x : XIdx → EReal) (w : WIdx → EReal) (i : Fin 8192) (p : Fin 256) : EReal :=
  max (dinv adj i * ((∑ j : Fin 8192, edge (adj (ix2 i j)) * (dinv adj j * xw x w j p)) + dinv adj i * xw x w i p)) 0

/-- The layer's result: the hidden layer through the linear layer `h · lwᵀ + lb`. -/
def out (adj : AdjIdx → EReal) (x : XIdx → EReal) (w : WIdx → EReal) (lw : LwIdx → EReal) (lb : LbIdx → EReal)
    (i : OutIdx) : EReal :=
  (∑ p : Fin 256, hidden adj x w (i 0) p * lw (ix2 (i 1) p)) + lb (ix1 (i 1))

/-- The identity matrix's entry. -/
def eye (i j : Fin 8192) : EReal := if i = j then 1 else 0

/-- The degree as the row sum of the adjacency matrix with the identity added, summed from zero. -/
def degR (adj : AdjIdx → EReal) (i : Fin 8192) : EReal := 0 + ∑ j : Fin 8192, (edge (adj (ix2 i j)) + eye i j)

def dinvR (adj : AdjIdx → EReal) (i : Fin 8192) : EReal := Ideal.rsqrt (degR adj i)

/-- The normalized adjacency matrix `D^(-1/2) (A + I) D^(-1/2)`. -/
def ahat (adj : AdjIdx → EReal) (i j : Fin 8192) : EReal :=
  (edge (adj (ix2 i j)) + eye i j) * dinvR adj i * dinvR adj j

/-- The hidden layer, the normalized adjacency applied to the features first, then projected. -/
def hiddenR (adj : AdjIdx → EReal) (x : XIdx → EReal) (w : WIdx → EReal) (i : Fin 8192) (p : Fin 256) : EReal :=
  max (∑ k : Fin 512, (∑ j : Fin 8192, ahat adj i j * x (ix2 j k)) * w (ix2 k p)) 0

def outR (adj : AdjIdx → EReal) (x : XIdx → EReal) (w : WIdx → EReal) (lw : LwIdx → EReal) (lb : LbIdx → EReal)
    (i : OutIdx) : EReal :=
  (∑ p : Fin 256, hiddenR adj x w (i 0) p * lw (ix2 (i 1) p)) + lb (ix1 (i 1))

end Cert.Gcn

end
-- ==== Proof.Consts.lean ====
/-
  The float literals the two programs spell, as the extended reals their patterns denote: one, zero and +∞ in the 32-bit
  format, one and zero in the 16-bit brain format. Stated once here so that no other module opens the patterns.
-/
import Idealize.ShloMosaic.PureOps.Ideal

noncomputable section

namespace Cert.Gcn.Consts

open Idealize.ShloMosaic

/-- The 32-bit pattern of `1.0` denotes 1. -/
theorem one_f32 : Ideal.ofBits .f32 0x3F800000#32 = 1 := by
  simp [Ideal.ofBits, Ideal.ieee, -EReal.coe_mul]; norm_num

/-- The 32-bit pattern of `+0.0` denotes 0. -/
theorem zero_f32 : Ideal.ofBits .f32 0x00000000#32 = 0 := by
  simp [Ideal.ofBits, Ideal.ieee]

/-- The 16-bit pattern of `1.0` denotes 1. -/
theorem one_bf16 : Ideal.ofBits .bf16 0x3F80#16 = 1 := by
  simp [Ideal.ofBits, Ideal.ieee, -EReal.coe_mul]; norm_num

/-- The 16-bit pattern of `+0.0` denotes 0. -/
theorem zero_bf16 : Ideal.ofBits .bf16 0x0000#16 = 0 := by
  simp [Ideal.ofBits, Ideal.ieee]

/-- The 32-bit pattern with all exponent bits set and no fraction denotes +∞. -/
theorem inf_f32 : Ideal.ofBits .f32 0x7F800000#32 = (⊤ : EReal) := by
  simp [Ideal.ofBits, Ideal.ieee]

end Cert.Gcn.Consts

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.DegPayload.lean ====
/-
  What the degree kernel's body stores, read at an index: for a block of 512 rows of the adjacency weights, row `p` of the
  stored column is the row's number of edges plus one, to the power -1/2.
-/
import proofs.«119222_j33621003993517_2_alg».proof.Proof.Gen.KernelIdeal.Skeleton
import proofs.«119222_j33621003993517_2_alg».proof.Proof.Spec
import proofs.«119222_j33621003993517_2_alg».proof.Proof.Consts
import proofs.«119222_j33621003993517_2_alg».proof.Proof.LibKeepdims
import proofs.«119222_j33621003993517_2_alg».proof.Proof.LibRowSumZero
import Idealize.ShloMosaic.Lib.ValueIdx
import Idealize.ShloMosaic.Lib.Pipeline.Value

noncomputable section

namespace Cert.Gcn.Kernel

open Cert.KernelIdeal Cert.KernelIdeal.Gen Idealize.ShloMosaic Idealize.ShloMosaic.ValueIdx Cert.RowSumZero

/-- Row `p` of the stored column: the row's edge count plus one, to the power -1/2. -/
theorem deg_payload (x0 : Vec Ideal S512x8192 .f32) (p : Fin 512) (u : Fin 1) :
    k0_pay1 (F := Ideal) x0 (ix2 p u) = Ideal.rsqrt ((∑ k : Fin 8192, edge (x0 (ix2 p k))) + 1) := by
  unfold k0_pay1
  simp only [rsqrt_apply, addf_apply, broadcast_apply]
  rw [Keepdims.shapeCast_a_a1_apply, rowSum_zero_apply]
  simp only [select_apply, cmpf_apply, broadcast_apply, Ideal.ofBits_def, Ideal.cmpf_def, Consts.one_f32, Consts.zero_f32]
  rfl

end Cert.Gcn.Kernel

end
-- ==== Proof.DegArray.lean ====
/-
  The first pallas_call's result as one whole array: grid point `t` writes back rows 512·t … 512·t + 511 of the column of
  inverse square-root degrees, each row computed from the same rows of the adjacency weights; the sixteen blocks tile the
  column, so after the call the array IS that column of the adjacency weights the call found.
-/
import proofs.«119222_j33621003993517_2_alg».proof.Proof.Gen.KernelIdeal.Frame
import proofs.«119222_j33621003993517_2_alg».proof.Proof.DegPayload

set_option maxRecDepth 16384

noncomputable section

namespace Cert.Gcn.Kernel

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The column [8192, 1] of inverse square-root degrees of an adjacency array. -/
def dcol (adj : S8192x8192.Idx → EReal) : S8192x1.Idx → EReal := fun i => dinv adj (i 0)

theorem zero_offsets : (![0, 0] : Fin 2 → Nat) = fun _ => 0 := funext fun a => by fin_cases a <;> rfl

/-- At grid point `t` both windows sit at block row `t`, block column 0. -/
theorem deg_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What grid point `t` writes back is block `t` of the column of inverse square-root degrees. -/
theorem deg_flushed (c : Dev nD) (t : Fin cfg0.N) :
    (dat0 V c).flushed 1 t = ((cfg0.win 1).blk t).view.read (Elt Ideal) (dcol (V c main_arg1)) := by
  show (cfg0.win 1).cut (grid0.coords t) ((dat0 V c).after 1 t) = _
  rw [after0_1]
  unfold out0_1
  rw [View.canon_unit_zero zero_offsets]
  simp only [View.ld_unit_zero (S := S512x8192) zero_offsets]
  obtain ⟨e0, e1, e2, e3⟩ := deg_index t
  funext j
  show k0_pay1 (iblk0 V c 0 t) j = dcol (V c main_arg1) (((cfg0.win 1).blk t).view.emb j)
  refine (congrArg (k0_pay1 (iblk0 V c 0 t)) (eq_ix2 j)).trans ((deg_payload (iblk0 V c 0 t) (j 0) (j 1)).trans ?_)
  unfold dcol dinv deg
  refine congrArg (fun s => Ideal.rsqrt (s + 1)) (Finset.sum_congr rfl fun k _ => congrArg edge ?_)
  show V c main_arg1 (((cfg0.win 0).blk t).view.emb (ix2 (j 0) k)) = V c main_arg1 (ix2 ((((cfg0.win 1).blk t).view.emb j) 0) k)
  refine congrArg (V c main_arg1) (funext fun a => Fin.ext ?_)
  match a with
  | ⟨0, _⟩ =>
    show win0_0.index t (0 : Fin 2) * 512 + 1 * (j 0).val = win0_1.index t (0 : Fin 2) * 512 + 1 * (j 0).val
    omega
  | ⟨1, _⟩ =>
    show win0_0.index t (1 : Fin 2) * 8192 + 1 * k.val = k.val
    omega

/-- An index of the column is in point `t`'s block iff each coordinate is in the block's range on its axis. -/
theorem deg_mem_blk (t : Fin cfg0.N) (i : S8192x1.Idx) :
    i ∈ ((cfg0.win 1).blk t).view.set ↔ ∀ a : Fin 2, win0_1.index t a * S512x1.size a ≤ (i a).val
      ∧ (i a).val < win0_1.index t a * S512x1.size a + S512x1.size a := by
  show i ∈ ((View.whole main_v0).slice (win0_1.rect t)).set ↔ _
  rw [View.set_slice_whole, Rect.mem_set_unit]
  exact Iff.rfl

/-- Row `r` of the column is written by grid point `r / 512`. -/
theorem deg_cover (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 16 := N_0
  let t : Fin cfg0.N := ⟨(i 0).val / 512, by omega⟩
  obtain ⟨-, -, e2, e3⟩ := deg_index t
  have ht : t.val = (i 0).val / 512 := rfl
  refine ⟨t, flush0_1 t, ?_⟩
  rw [deg_mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 1 ≤ (i 1).val ∧ (i 1).val < win0_1.index t (1 : Fin 2) * 1 + 1
    omega

/-- After the first pallas_call its result array is the column of inverse square-root degrees of the adjacency weights. -/
theorem deg_final (c : Dev nD) : (dat0 V c).arrAt 1 cfg0.N = dcol (V c main_arg1) :=
  (dat0 V c).arrAt_eq_of_cover 1 (dcol (V c main_arg1)) (fun t _ => deg_flushed V c t) deg_cover

end Cert.Gcn.Kernel

end
-- ==== Proof.MainPiece.lean ====
/-
  What the main kernel's body leaves in its output block: ONE store of the whole block, whose value is the body's arithmetic
  of its six loads — the adjacency rows, the resident projected features read whole, the 256 rows of them that belong to the
  block (read at the block's own row offset), the block's inverse square-root degrees, the linear layer's matrix and bias.
-/
import proofs.«119222_j33621003993517_2_alg».proof.Proof.Gen.KernelIdeal.Frame
import Idealize.ShloMosaic.Lib.Pipeline.Value

set_option maxRecDepth 16384

noncomputable section

namespace Cert.Gcn.Kernel

open Cert.KernelIdeal Cert.KernelIdeal.Gen
open Idealize.ShloMosaic Idealize.ShloMosaic.TcCoe Idealize.ShloMosaic.Tactic
open Idealize.SL Idealize.SL.Sem

variable {F : FTy → Type} [FloatOps F]

theorem zero_offsets2 : (![0, 0] : Fin 2 → Nat) = fun _ => 0 := funext fun a => by fin_cases a <;> rfl

/-- The rows of the resident projected features the body reads a second time at grid coordinates `i`. -/
def selfRows (i : grid1.Coords) (x1 : Vec F S8192x256 .bf16) : Vec F S256x256 .bf16 :=
  View.ld x1 (Rect.unit (s := S8192x256) (k1_off1 i) S256x256.size (k1_off1_inb i))

set_option maxHeartbeats 400000 in
/-- The output block after the body: the body's arithmetic of its loads. -/
theorem main_out_eq (c : Dev nD) (i : grid1.Coords) (arg1 : Memref sig .tc .vmem S256x8192 .f32) (harg1 : arg1.IsWhole) (arg2 : Memref sig .tc .vmem S8192x256 .bf16) (harg2 : arg2.IsWhole) (arg3 : Memref sig .tc .vmem S256x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole)
    (x0 : Vec F S256x8192 .f32) (x1 : Vec F S8192x256 .bf16) (x2 : Vec F S256x1 .f32) (x3 : Vec F S256x256 .f32) (x4 : Vec F S1x256 .f32) :
    out1_A_5 c i arg1 harg1 arg2 harg2 arg3 harg3 arg4 harg4 arg5 harg5 arg6 harg6 x0 x1 x2 x3 x4
      = k1_pay1 x0 x1 (selfRows i x1) x2 x3 x4 := by
  unfold out1_A_5
  rw [View.read_writes_eq_canon _ _ _ (cover1_A_5 c i arg1 harg1 arg2 harg2 arg3 harg3 arg4 harg4 arg5 harg5 arg6 harg6 x0 x1 x2 x3 x4)]
  unfold kernelRun1_A
  dsimp only
  sl_unfold_words
  rw [View.canon_unit_zero zero_offsets2]
  simp only [View.readAt_eq_ld, harg1.read_unread, harg2.read_unread, harg3.read_unread, harg4.read_unread, harg5.read_unread,
    View.ld_unit_zero (S := S256x8192) zero_offsets2, View.ld_unit_zero (S := S8192x256) zero_offsets2,
    View.ld_unit_zero (S := S256x1) zero_offsets2, View.ld_unit_zero (S := S256x256) zero_offsets2,
    View.ld_unit_zero (S := S1x256) zero_offsets2]
  rfl

end Cert.Gcn.Kernel

end
-- ==== Proof.MainPayload.lean ====
/-
  What the main kernel's body stores, read at an index. For a block of 256 rows of the adjacency weights, with the
  scaled projected features `y` (all 8192 rows), the block's own rows `s` of them, the block's column `c` of degree
  scalings, the transposed matrix `m` of the linear layer and its bias row `b`, the stored entry at `(r, o)` is
      Σ_p max( c(r,0) · ( Σ_j edge(r,j) · y(j,p) + s(r,p) ), 0 ) · m(p,o)  +  b(0,o).
  The two matrix products into a zero accumulator are plain sums over their one contracted axis; the casts to the same
  shape and the widening of the 16-bit format are the identity on the extended reals.
-/
import proofs.«119222_j33621003993517_2_alg».proof.Proof.Gen.KernelIdeal.Skeleton
import proofs.«119222_j33621003993517_2_alg».proof.Proof.Spec
import proofs.«119222_j33621003993517_2_alg».proof.Proof.Consts
import proofs.«119222_j33621003993517_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.MainBody

open Cert.KernelIdeal Cert.KernelIdeal.Gen Idealize.ShloMosaic Idealize.ShloMosaic.ValueIdx Cert.Gcn

/-! ## The two matrix products as sums -/

/-- In the product of the edge indicators by the scaled features, the left operand's row coordinate is the result's. -/
theorem edgeProd_lhs_0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch from List.not_mem_nil),
    dif_pos (show (0 : Fin S256x8192.rank) ∈ dot_S256x8192_S8192x256_S256x256_1_0_0_1_n_n.lhsNonContracting from List.mem_singleton.2 rfl)]
  rfl

/-- In the same product the right operand's column coordinate is the result's. -/
theorem edgeProd_rhs_1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch from List.not_mem_nil),
    dif_pos (show (1 : Fin S8192x256.rank) ∈ dot_S256x8192_S8192x256_S256x256_1_0_0_1_n_n.rhsNonContracting from List.mem_singleton.2 rfl)]
  rfl

/-- The edge indicators `[256, 8192]` times the scaled features `[8192, 256]`, into a zero accumulator: at `(r, p)` the sum
    over the 8192 nodes `k` of the left at `(r, k)` times the right at `(k, p)`. -/
theorem edgeProd_at (A : FVec Ideal S256x8192 .bf16) (B : FVec Ideal S8192x256 .bf16) (r p : Fin 256) :
    matmul dot_S256x8192_S8192x256_S256x256_1_0_0_1_n_n none A B (constant (F := Ideal) S256x256 .f32 0x00000000#32) (ix2 r p)
      = ∑ k : Fin 8192, A (ix2 r k) * B (ix2 k p) := by
  simp only [matmul]
  rw [Ideal.matmul_constant_zero_apply, ← Equiv.sum_comp (contrEquiv1 dot_S256x8192_S8192x256_S256x256_1_0_0_1_n_n 8192 rfl rfl).symm]
  refine Finset.sum_congr rfl fun k _ => ?_
  have hk := contrEquiv1_symm_val dot_S256x8192_S8192x256_S256x256_1_0_0_1_n_n 8192 rfl rfl k
  have el : dot_S256x8192_S8192x256_S256x256_1_0_0_1_n_n.lhsIdx (ix2 r p) ((contrEquiv1 dot_S256x8192_S8192x256_S256x256_1_0_0_1_n_n 8192 rfl rfl).symm k) = ix2 r k :=
    funext fun a => Fin.ext (by
      match a with
      | ⟨0, _⟩ => exact edgeProd_lhs_0 _ _
      | ⟨1, _⟩ => exact (dot_S256x8192_S8192x256_S256x256_1_0_0_1_n_n.lhsIdx_val_of_single rfl _ _).trans hk)
  have er : dot_S256x8192_S8192x256_S256x256_1_0_0_1_n_n.rhsIdx (ix2 r p) ((contrEquiv1 dot_S256x8192_S8192x256_S256x256_1_0_0_1_n_n 8192 rfl rfl).symm k) = ix2 k p :=
    funext fun a => Fin.ext (by
      match a with
      | ⟨0, _⟩ => exact (dot_S256x8192_S8192x256_S256x256_1_0_0_1_n_n.rhsIdx_val_of_single rfl _ _).trans hk
      | ⟨1, _⟩ => exact edgeProd_rhs_1 _ _)
  rw [el, er]

/-- In the product of the hidden layer by the transposed matrix, the left operand's row coordinate is the result's. -/
theorem linProd_lhs_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch from List.not_mem_nil),
    dif_pos (show (0 : Fin S256x256.rank) ∈ dot_S256x256_S256x256_S256x256_1_0_0_1_n_n.lhsNonContracting from List.mem_singleton.2 rfl)]
  rfl

/-- In the same product the right operand's column coordinate is the result's. -/
theorem linProd_rhs_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch from List.not_mem_nil),
    dif_pos (show (1 : Fin S256x256.rank) ∈ dot_S256x256_S256x256_S256x256_1_0_0_1_n_n.rhsNonContracting from List.mem_singleton.2 rfl)]
  rfl

/-- The hidden layer `[256, 256]` times the transposed matrix `[256, 256]`, into a zero accumulator: at `(r, o)` the sum over
    the 256 hidden features `k` of the left at `(r, k)` times the right at `(k, o)`. -/
theorem linProd_at (A : FVec Ideal S256x256 .f32) (B : FVec Ideal S256x256 .f32) (r p : Fin 256) :
    matmul dot_S256x256_S256x256_S256x256_1_0_0_1_n_n none A B (constant (F := Ideal) S256x256 .f32 0x00000000#32) (ix2 r p)
      = ∑ k : Fin 256, A (ix2 r k) * B (ix2 k p) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 r p) ((contrEquiv1 dot_S256x256_S256x256_S256x256_1_0_0_1_n_n 256 rfl rfl).symm k) = ix2 r k :=
    funext fun a => Fin.ext (by
      match a with
      | ⟨0, _⟩ => exact linProd_lhs_0 _ _
      | ⟨1, _⟩ => exact (dot_S256x256_S256x256_S256x256_1_0_0_1_n_n.lhsIdx_val_of_single rfl _ _).trans hk)
  have er : dot_S256x256_S256x256_S256x256_1_0_0_1_n_n.rhsIdx (ix2 r p) ((contrEquiv1 dot_S256x256_S256x256_S256x256_1_0_0_1_n_n 256 rfl rfl).symm k) = ix2 k p :=
    funext fun a => Fin.ext (by
      match a with
      | ⟨0, _⟩ => exact (dot_S256x256_S256x256_S256x256_1_0_0_1_n_n.rhsIdx_val_of_single rfl _ _).trans hk
      | ⟨1, _⟩ => exact linProd_rhs_1 _ _)
  rw [el, er]

/-! ## The stored value -/

/-- The stored entry at `(r, o)`. -/
theorem main_payload (v0 : Vec Ideal S256x8192 .f32) (v6 : Vec Ideal S8192x256 .bf16) (v12 : Vec Ideal S256x256 .bf16)
    (v16 : Vec Ideal S256x1 .f32) (v22 : Vec Ideal S256x256 .f32) (v25 : Vec Ideal S1x256 .f32) (r o : Fin 256) :
    k1_pay1 (F := Ideal) v0 v6 v12 v16 v22 v25 (ix2 r o)
      = (∑ p : Fin 256, max (v16 (ix2 r (0 : Fin 1))
            * ((∑ j : Fin 8192, edge (v0 (ix2 r j)) * v6 (ix2 j p)) + v12 (ix2 r p))) 0 * v22 (ix2 p o))
          + v25 (ix2 (0 : Fin 1) o) := by
  unfold k1_pay1
  simp only [shapeCast_self]
  rw [addf_apply, broadcastTo_1b_ab_apply, linProd_at]
  refine congrArg (· + _) (Finset.sum_congr rfl fun p _ => ?_)
  rw [maximumf_apply, mulf_apply, Keepdims.broadcastTo_a1_ab_apply, addf_apply, extf_apply, edgeProd_at, broadcast_apply]
  simp only [select_apply, cmpf_apply, broadcast_apply, Ideal.ofBits_def, Ideal.cmpf_def, Consts.one_bf16, Consts.zero_bf16,
    Consts.zero_f32]
  rfl

end Cert.Gcn.MainBody

end
-- ==== Proof.MainCover.lean ====
/-
  Layout facts of the second pallas_call, a grid of 32 points.  At grid point t the adjacency window, the degree-column
  window and the result window sit at block row t, block column 0; the projected features, the linear layer's matrix and
  its bias are resident (block 0, 0); and the body's own load of the projected features starts at row 256·t, column 0.
  The result window's blocks are rows 256·t … 256·t + 255 of the result, every point writes its block back, and the 32
  blocks tile the [8192, 256] result: row r is written by grid point r / 256.
-/
import proofs.«119222_j33621003993517_2_alg».proof.Proof.Gen.KernelIdeal.Frame

set_option maxRecDepth 16384

noncomputable section

namespace Cert.Gcn.MainCover

open Cert.KernelIdeal Cert.KernelIdeal.Gen
open Idealize.ShloMosaic Idealize.ShloMosaic.TcCoe
open Idealize.SL Idealize.SL.Sem
open Idealize.ShloMosaic.Pipeline (Dat Cfg Window)

/-- At grid point t: the block indices of the six windows, and the offsets of the body's load of the projected features. -/
theorem main_index : ∀ t : Fin cfg1.N,
    win1_0.index t (0 : Fin 2) = t.val ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 ∧ win1_3.index t (0 : Fin 2) = 0 ∧ win1_3.index t (1 : Fin 2) = 0
    ∧ win1_4.index t (0 : Fin 2) = 0 ∧ win1_4.index t (1 : Fin 2) = 0 ∧ win1_5.index t (0 : Fin 2) = t.val ∧ win1_5.index t (1 : Fin 2) = 0
    ∧ k1_off1 (grid1.coords t) (0 : Fin 2) = 256 * t.val ∧ k1_off1 (grid1.coords t) (1 : Fin 2) = 0 :=
  (by decide +kernel : ∀ t : Fin grid1.N, _)

/-- An index of the result is in point t's block iff each coordinate is in the block's range on its axis. -/
theorem main_mem_blk (t : Fin cfg1.N) (i : S8192x256.Idx) :
    i ∈ ((cfg1.win 5).blk t).view.set ↔ ∀ a : Fin 2, win1_5.index t a * S256x256.size a ≤ (i a).val
      ∧ (i a).val < win1_5.index t a * S256x256.size a + S256x256.size a := by
  show i ∈ ((View.whole main_v7).slice (win1_5.rect t)).set ↔ _
  rw [View.set_slice_whole, Rect.mem_set_unit]
  exact Iff.rfl

/-- Row r of the result is written by grid point r / 256. -/
theorem main_cover (i : S8192x256.Idx) :
    ∃ t : Fin cfg1.N, (cfg1.win 5).flush t = true ∧ i ∈ ((cfg1.win 5).blk t).view.set := by
  have hi0 : (i 0).val < 8192 := (i 0).isLt
  have hi1 : (i 1).val < 256 := (i 1).isLt
  have hN : cfg1.N = 32 := N_1
  let t : Fin cfg1.N := ⟨(i 0).val / 256, by omega⟩
  obtain ⟨-, -, -, -, -, -, -, -, -, -, e0, e1, -, -⟩ := main_index t
  have ht : t.val = (i 0).val / 256 := rfl
  refine ⟨t, flush1_5 t, ?_⟩
  rw [main_mem_blk]
  intro a
  match a with
  | ⟨0, _⟩ =>
    show win1_5.index t (0 : Fin 2) * 256 ≤ (i 0).val ∧ (i 0).val < win1_5.index t (0 : Fin 2) * 256 + 256
    omega
  | ⟨1, _⟩ =>
    show win1_5.index t (1 : Fin 2) * 256 ≤ (i 1).val ∧ (i 1).val < win1_5.index t (1 : Fin 2) * 256 + 256
    omega

end Cert.Gcn.MainCover

end
-- ==== Proof.MainArray.lean ====
/-
  The second pallas_call's result as one whole array. Grid point `t` writes back rows 256·t … 256·t + 255: row `r` of the
  block is computed from row 256·t + r of the adjacency weights and of the inverse square-root degrees, from the whole of the
  scaled projected features (and once more from their row 256·t + r, the self-loop's term), and from the linear layer's
  matrix and bias, which every point reads whole. The thirty-two blocks tile the result, so after the call the array is one
  function (`mainG`) of the five arrays the call found.
-/
import proofs.«119222_j33621003993517_2_alg».proof.Proof.Gen.KernelIdeal.Frame
import proofs.«119222_j33621003993517_2_alg».proof.Proof.MainPiece
import proofs.«119222_j33621003993517_2_alg».proof.Proof.MainPayload
import proofs.«119222_j33621003993517_2_alg».proof.Proof.MainCover

set_option maxRecDepth 16384

noncomputable section

namespace Cert.Gcn.Kernel

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Gcn.MainBody Cert.Gcn.MainCover

variable (V : (c : Dev nD) → (b : Ref sig .tc) → Buf (Elt Ideal) ((c : Thread nD τ).loc b))

/-- What the second call leaves, as a function of the adjacency weights, the scaled projected features `xs`, the column
    `d` of inverse square-root degrees, the transposed linear matrix `lwT` and the bias as a row `lbr`. -/
def mainG (adj : S8192x8192.Idx → EReal) (xs : S8192x256.Idx → EReal) (d : S8192x1.Idx → EReal)
    (lwT : S256x256.Idx → EReal) (lbr : S1x256.Idx → EReal) : S8192x256.Idx → EReal := fun i =>
  (∑ p : Fin 256, max (d (ix2 (i 0) (0 : Fin 1)) * ((∑ j : Fin 8192, edge (adj (ix2 (i 0) j)) * xs (ix2 j p)) + xs (ix2 (i 0) p))) 0
      * lwT (ix2 p (i 1))) + lbr (ix2 (0 : Fin 1) (i 1))

/-- What grid point `t` writes back is block `t` of `mainG` of the arrays the call found. -/
theorem main_flushed (c : Dev nD) (t : Fin cfg1.N) :
    (dat1 V c).flushed 5 t = ((cfg1.win 5).blk t).view.read (Elt Ideal)
      (mainG (V c main_arg1) (V c main_v4) (V c main_v0) (V c main_v5) (V c main_v6)) := by
  show (cfg1.win 5).cut (grid1.coords t) ((dat1 V c).after 5 t) = _
  rw [after1_5]
  unfold outsAt1
  rw [main_out_eq]
  obtain ⟨e00, e01, e10, e11, e20, e21, e30, e31, e40, e41, e50, e51, eo0, eo1⟩ := main_index t
  funext y
  show k1_pay1 (iblk1 V c 0 t) (iblk1 V c 1 t) (selfRows (grid1.coords t) (iblk1 V c 1 t)) (iblk1 V c 2 t) (iblk1 V c 3 t)
      (iblk1 V c 4 t) y
    = mainG (V c main_arg1) (V c main_v4) (V c main_v0) (V c main_v5) (V c main_v6) (((cfg1.win 5).blk t).view.emb y)
  refine (congrArg (k1_pay1 (iblk1 V c 0 t) (iblk1 V c 1 t) (selfRows (grid1.coords t) (iblk1 V c 1 t)) (iblk1 V c 2 t)
    (iblk1 V c 3 t) (iblk1 V c 4 t)) (eq_ix2 y)).trans
    ((main_payload (iblk1 V c 0 t) (iblk1 V c 1 t) (selfRows (grid1.coords t) (iblk1 V c 1 t)) (iblk1 V c 2 t)
      (iblk1 V c 3 t) (iblk1 V c 4 t) (y 0) (y 1)).trans ?_)
  unfold mainG
  -- the adjacency rows of the block are rows 256·t + r of the array
  have b0 : ∀ j : Fin 8192, iblk1 V c 0 t (ix2 (y 0) j)
      = V c main_arg1 (ix2 ((((cfg1.win 5).blk t).view.emb y) 0) j) := fun j => by
    show V c main_arg1 (((cfg1.win 0).blk t).view.emb (ix2 (y 0) j)) = _
    refine congrArg (V c main_arg1) (funext fun a => Fin.ext ?_)
    match a with
    | ⟨0, _⟩ =>
      show win1_0.index t (0 : Fin 2) * 256 + 1 * (y 0).val = win1_5.index t (0 : Fin 2) * 256 + 1 * (y 0).val
      omega
    | ⟨1, _⟩ =>
      show win1_0.index t (1 : Fin 2) * 8192 + 1 * j.val = j.val
      omega
  -- the scaled projected features are read whole
  have b1 : ∀ (j : Fin 8192) (p : Fin 256), iblk1 V c 1 t (ix2 j p) = V c main_v4 (ix2 j p) := fun j p => by
    show V c main_v4 (((cfg1.win 1).blk t).view.emb (ix2 j p)) = _
    refine congrArg (V c main_v4) (funext fun a => Fin.ext ?_)
    match a with
    | ⟨0, _⟩ =>
      show win1_1.index t (0 : Fin 2) * 8192 + 1 * j.val = j.val
      omega
    | ⟨1, _⟩ =>
      show win1_1.index t (1 : Fin 2) * 256 + 1 * p.val = p.val
      omega
  -- the self-loop's rows of them are rows 256·t + r
  have bs : ∀ p : Fin 256, selfRows (grid1.coords t) (iblk1 V c 1 t) (ix2 (y 0) p)
      = V c main_v4 (ix2 ((((cfg1.win 5).blk t).view.emb y) 0) p) := fun p => by
    show V c main_v4 (((cfg1.win 1).blk t).view.emb
      ((Rect.unit (s := S8192x256) (k1_off1 (grid1.coords t)) S256x256.size (k1_off1_inb (grid1.coords t))).emb (ix2 (y 0) p))) = _
    refine congrArg (V c main_v4) (funext fun a => Fin.ext ?_)
    match a with
    | ⟨0, _⟩ =>
      show win1_1.index t (0 : Fin 2) * 8192 + 1 * (k1_off1 (grid1.coords t) (0 : Fin 2) + 1 * (y 0).val)
        = win1_5.index t (0 : Fin 2) * 256 + 1 * (y 0).val
      omega
    | ⟨1, _⟩ =>
      show win1_1.index t (1 : Fin 2) * 256 + 1 * (k1_off1 (grid1.coords t) (1 : Fin 2) + 1 * p.val) = p.val
      omega
  -- the block's inverse square-root degrees are rows 256·t + r of the column
  have b2 : iblk1 V c 2 t (ix2 (y 0) (0 : Fin 1))
      = V c main_v0 (ix2 ((((cfg1.win 5).blk t).view.emb y) 0) (0 : Fin 1)) := by
    show V c main_v0 (((cfg1.win 2).blk t).view.emb (ix2 (y 0) (0 : Fin 1))) = _
    refine congrArg (V c main_v0) (funext fun a => Fin.ext ?_)
    match a with
    | ⟨0, _⟩ =>
      show win1_2.index t (0 : Fin 2) * 256 + 1 * (y 0).val = win1_5.index t (0 : Fin 2) * 256 + 1 * (y 0).val
      omega
    | ⟨1, _⟩ =>
      show win1_2.index t (1 : Fin 2) * 1 + 1 * 0 = 0
      omega
  -- the linear layer's matrix and bias are read whole; the block spans every column
  have b3 : ∀ p : Fin 256, iblk1 V c 3 t (ix2 p (y 1))
      = V c main_v5 (ix2 p ((((cfg1.win 5).blk t).view.emb y) 1)) := fun p => by
    show V c main_v5 (((cfg1.win 3).blk t).view.emb (ix2 p (y 1))) = _
    refine congrArg (V c main_v5) (funext fun a => Fin.ext ?_)
    match a with
    | ⟨0, _⟩ =>
      show win1_3.index t (0 : Fin 2) * 256 + 1 * p.val = p.val
      omega
    | ⟨1, _⟩ =>
      show win1_3.index t (1 : Fin 2) * 256 + 1 * (y 1).val = win1_5.index t (1 : Fin 2) * 256 + 1 * (y 1).val
      omega
  have b4 : iblk1 V c 4 t (ix2 (0 : Fin 1) (y 1))
      = V c main_v6 (ix2 (0 : Fin 1) ((((cfg1.win 5).blk t).view.emb y) 1)) := by
    show V c main_v6 (((cfg1.win 4).blk t).view.emb (ix2 (0 : Fin 1) (y 1))) = _
    refine congrArg (V c main_v6) (funext fun a => Fin.ext ?_)
    match a with
    | ⟨0, _⟩ =>
      show win1_4.index t (0 : Fin 2) * 1 + 1 * 0 = 0
      omega
    | ⟨1, _⟩ =>
      show win1_4.index t (1 : Fin 2) * 256 + 1 * (y 1).val = win1_5.index t (1 : Fin 2) * 256 + 1 * (y 1).val
      omega
  simp only [b0, b1, bs, b2, b3, b4]

/-- After the second pallas_call its result array is `mainG` of the arrays the call found. -/
theorem main_final (c : Dev nD) : (dat1 V c).arrAt 5 cfg1.N
    = mainG (V c main_arg1) (V c main_v4) (V c main_v0) (V c main_v5) (V c main_v6) :=
  (dat1 V c).arrAt_eq_of_cover 5 (mainG (V c main_arg1) (V c main_v4) (V c main_v0) (V c main_v5) (V c main_v6))
    (fun t _ => main_flushed V c t) main_cover

end Cert.Gcn.Kernel

end
-- ==== Proof.HostStage.lean ====
/-
  The three host computations between the two kernels, each read at one element over the extended reals:
  • the projected features `x · w` scaled row by row by a column `d` and narrowed to the 16-bit format (the
    narrowing is the identity on the extended reals): at `(j, p)` it is `d (j, 0) · (x · w)(j, p)`;
  • the linear layer's matrix transposed: at `(p, o)` the matrix at `(o, p)`;
  • the linear layer's bias viewed as a row `[1, 256]`: at `(0, o)` the bias at `o`.
-/
import proofs.«119222_j33621003993517_2_alg».proof.KernelIdeal
import proofs.«119222_j33621003993517_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.HostStage

open Cert.KernelIdeal Idealize.ShloMosaic Idealize.ShloMosaic.ValueIdx Cert.Gcn
open Cert.KernelIdeal.Facts₀ Cert.KernelIdeal.Facts

variable [Cert.KernelIdeal.Facts]

/-! ## The projection `x · w` -/

/-- The left operand's row coordinate is the result's. -/
theorem xw_lhs_0 (i : S8192x256.Idx) (q : dot_S8192x512_S512x256_S8192x256_1_0_0_1_n_n.contr.Idx) :
    (dot_S8192x512_S512x256_S8192x256_1_0_0_1_n_n.lhsIdx i q 0).val = (i 0).val := by
  unfold DotDims.lhsIdx
  rw [dif_neg (show ¬(0 : Fin S8192x512.rank) ∈ dot_S8192x512_S512x256_S8192x256_1_0_0_1_n_n.lhsBatch from
      List.not_mem_nil),
    dif_pos (show (0 : Fin S8192x512.rank) ∈ dot_S8192x512_S512x256_S8192x256_1_0_0_1_n_n.lhsNonContracting from
      List.mem_singleton.2 rfl)]
  rfl

/-- The right operand's column coordinate is the result's. -/
theorem xw_rhs_1 (i : S8192x256.Idx) (q : dot_S8192x512_S512x256_S8192x256_1_0_0_1_n_n.contr.Idx) :
    (dot_S8192x512_S512x256_S8192x256_1_0_0_1_n_n.rhsIdx i q 1).val = (i 1).val := by
  unfold DotDims.rhsIdx
  rw [dif_neg (show ¬(1 : Fin S512x256.rank) ∈ dot_S8192x512_S512x256_S8192x256_1_0_0_1_n_n.rhsBatch from
      List.not_mem_nil),
    dif_pos (show (1 : Fin S512x256.rank) ∈ dot_S8192x512_S512x256_S8192x256_1_0_0_1_n_n.rhsNonContracting from
      List.mem_singleton.2 rfl)]
  rfl

/-- The host's product of the features by the feature weights, at `(j, p)`, is the sum over the 512 input features:
    the left operand is read at `(j, k)`, the right one at `(k, p)`. -/
theorem xw_at (x : FVec Ideal S8192x512 .f32) (w : FVec Ideal S512x256 .f32) (j : Fin 8192) (p : Fin 256) :
    Host.dotGeneral dot_S8192x512_S512x256_S8192x256_1_0_0_1_n_n none x w (ix2 j p) = xw x w j p := by
  simp only [Host.dotGeneral]
  rw [Ideal.dotGeneral_apply,
    ← Equiv.sum_comp (contrEquiv1 dot_S8192x512_S512x256_S8192x256_1_0_0_1_n_n 512 rfl rfl).symm]
  unfold xw
  refine Finset.sum_congr rfl fun k _ => ?_
  have hk := contrEquiv1_symm_val dot_S8192x512_S512x256_S8192x256_1_0_0_1_n_n 512 rfl rfl k
  have el : dot_S8192x512_S512x256_S8192x256_1_0_0_1_n_n.lhsIdx (ix2 j p)
      ((contrEquiv1 dot_S8192x512_S512x256_S8192x256_1_0_0_1_n_n 512 rfl rfl).symm k) = ix2 j k :=
    funext fun a => Fin.ext (by
      match a with
      | ⟨0, _⟩ => exact xw_lhs_0 _ _
      | ⟨1, _⟩ => exact (dot_S8192x512_S512x256_S8192x256_1_0_0_1_n_n.lhsIdx_val_of_single rfl _ _).trans hk)
  have er : dot_S8192x512_S512x256_S8192x256_1_0_0_1_n_n.rhsIdx (ix2 j p)
      ((contrEquiv1 dot_S8192x512_S512x256_S8192x256_1_0_0_1_n_n 512 rfl rfl).symm k) = ix2 k p :=
    funext fun a => Fin.ext (by
      match a with
      | ⟨0, _⟩ => exact (dot_S8192x512_S512x256_S8192x256_1_0_0_1_n_n.rhsIdx_val_of_single rfl _ _).trans hk
      | ⟨1, _⟩ => exact xw_rhs_1 _ _)
  rw [el, er]

/-! ## The three host computations -/

/-- A column `[8192, 1]` spread over 256 columns reads, at `(j, p)`, the column's entry in row `j`. -/
theorem bcast_col_at (d : FVec Ideal S8192x1 .f32) (j : Fin 8192) (p : Fin 256) :
    broadcastInDim S8192x256 ![0, 1] bcast_S8192x1_S8192x256_0_1 d (ix2 j p) = d (ix2 j (0 : Fin 1)) :=
  broadcastInDim_apply _ bcast_S8192x1_S8192x256_0_1 d (ix2 j p) (ix2 j (0 : Fin 1)) (fun a => match a with
    | ⟨0, _⟩ => by show j.val = if (8192 : Nat) = 1 then 0 else j.val; rw [if_neg (by decide)]
    | ⟨1, _⟩ => by show 0 = if (1 : Nat) = 1 then 0 else p.val; rw [if_pos rfl])

/-- The scaled projected features, narrowed to the 16-bit format: row `j` of `x · w` times the column's entry in row `j`. -/
theorem scaled_features_at (d : FVec Ideal S8192x1 .f32) (x : FVec Ideal S8192x512 .f32)
    (w : FVec Ideal S512x256 .f32) (j : Fin 8192) (p : Fin 256) :
    truncf .bf16 (mulf (broadcastInDim S8192x256 ![0, 1] bcast_S8192x1_S8192x256_0_1 d)
        (Host.dotGeneral dot_S8192x512_S512x256_S8192x256_1_0_0_1_n_n none x w)) bitsLt_bf16_f32 (ix2 j p)
      = d (ix2 j (0 : Fin 1)) * xw x w j p := by
  rw [truncf_apply, mulf_apply, bcast_col_at, xw_at]

/-- The linear layer's matrix transposed. -/
theorem lin_w_transposed_at (lw : FVec Ideal S256x256 .f32) (p o : Fin 256) :
    transpose S256x256 [1, 0] lw transposes_S256x256_S256x256_1_0 (ix2 p o) = lw (ix2 o p) :=
  transpose_ix2_apply lw transposes_S256x256_S256x256_1_0 p o

/-- The linear layer's bias viewed as a row. -/
theorem lin_b_row_at (lb : FVec Ideal S256 .f32) (o : Fin 256) :
    shapeCast S1x256 lb shapeCasts_S256_S1x256 (ix2 (0 : Fin 1) o) = lb (ix1 o) :=
  shapeCast_a_1a_apply lb shapeCasts_S256_S1x256 0 o

end Cert.Gcn.HostStage

end
-- ==== Proof.KernelRun.lean ====
/-
  The kernel program's run with its result array named: every weakly fair execution terminates, nothing faults, the
  result array ends at what the second pallas_call's write-backs leave of it, and the five argument arrays end as launched.
-/
import proofs.«119222_j33621003993517_2_alg».proof.Proof.Gen.KernelIdeal.Frame

set_option maxRecDepth 16384

noncomputable section

namespace Cert.Gcn.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array read against the last boundary's contents beside the arguments. -/
theorem run_named : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Gcn.Kernel

end
-- ==== Proof.KernelValue.lean ====
/-
  The kernel program's result as a function of its arguments. Between the two pallas_calls the host projects the features
  (`x · w`), scales row `j` of the projection by node `j`'s inverse square-root degree, transposes the linear layer's matrix
  and views its bias as a row; the first call's column of inverse square-root degrees and the adjacency weights reach the
  second call untouched. Substituting those five arrays in what the second call leaves (`mainG`) gives the specification's
  `out` of the five arguments.
-/
import proofs.«119222_j33621003993517_2_alg».proof.Proof.Gen.KernelIdeal.Frame
import proofs.«119222_j33621003993517_2_alg».proof.Proof.DegArray
import proofs.«119222_j33621003993517_2_alg».proof.Proof.MainArray
import proofs.«119222_j33621003993517_2_alg».proof.Proof.HostStage
import proofs.«119222_j33621003993517_2_alg».proof.Proof.KernelRun
import Idealize.ShloMosaic.Lib.StableHlo.Run

set_option maxRecDepth 16384

noncomputable section

namespace Cert.Gcn.Kernel

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.Gcn.HostStage

variable (m : (ℓ : Loc nD τ sig) → Buf (Elt Ideal) ℓ) (ρ : Dev nD → PrngReg)

/-! ## What the first call leaves, and what it does not touch -/

/-- After the first call its result array is the column of inverse square-root degrees of the adjacency argument. -/
theorem W1_v0 (c : Dev nD) :
    W1 m ρ c (Proc.devRef .tc main_v0) = dcol (m ((c : Thread nD τ).loc main_arg1)) :=
  (W1_arr m ρ c 1).trans (deg_final (V0 m ρ) c)

/-- The adjacency argument, the first call's input, is as launched. -/
theorem W1_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))

theorem W1_arg0 (c : Dev nD) : W1 m ρ c (Proc.devRef .tc main_arg0) = m ((c : Thread nD τ).loc main_arg0) :=
  W1_of_ne m ρ c main_arg0 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)

/-! ## The five arrays the second call finds -/

theorem V2_arg1 (c : Dev nD) : V2 m ρ c main_arg1 = m ((c : Thread nD τ).loc main_arg1) := by
  show StableHlo.after hostOps1 (W1 m ρ c) (Proc.devRef .tc main_arg1) = _
  after_results
  exact W1_arg1 m ρ c

theorem V2_v0 (c : Dev nD) : V2 m ρ c main_v0 = dcol (m ((c : Thread nD τ).loc main_arg1)) := by
  show StableHlo.after hostOps1 (W1 m ρ c) (Proc.devRef .tc main_v0) = _
  after_results
  exact W1_v0 m ρ c

/-- The scaled projected features, read at `(j, p)`. -/
theorem V2_v4_at (c : Dev nD) (j : Fin 8192) (p : Fin 256) :
    V2 m ρ c main_v4 (ix2 j p)
      = dinv (m ((c : Thread nD τ).loc main_arg1)) j
        * xw (m ((c : Thread nD τ).loc main_arg0)) (m ((c : Thread nD τ).loc main_arg2)) j p := by
  have e : @Eq (FVec Ideal S8192x256 .bf16) (V2 m ρ c main_v4)
      (truncf .bf16 (mulf (broadcastInDim S8192x256 ![0, 1] bcast_S8192x1_S8192x256_0_1
          (dcol (m ((c : Thread nD τ).loc main_arg1)) : FVec Ideal S8192x1 .f32))
        (Host.dotGeneral (φ₁ := .f32) (φ₂ := .f32) dot_S8192x512_S512x256_S8192x256_1_0_0_1_n_n none
          (m ((c : Thread nD τ).loc main_arg0) : FVec Ideal S8192x512 .f32)
          (m ((c : Thread nD τ).loc main_arg2) : FVec Ideal S512x256 .f32))) bitsLt_bf16_f32) := by
    show StableHlo.after hostOps1 (W1 m ρ c) (Proc.devRef .tc main_v4) = _
    after_results
    rw [W1_v0, W1_arg0, W1_arg2]
  rw [e]
  exact scaled_features_at _ _ _ j p

/-- The linear layer's matrix, transposed, read at `(p, o)`. -/
theorem V2_v5_at (c : Dev nD) (p o : Fin 256) :
    V2 m ρ c main_v5 (ix2 p o) = m ((c : Thread nD τ).loc main_arg3) (ix2 o p) := by
  have e : @Eq (FVec Ideal S256x256 .f32) (V2 m ρ c main_v5)
      (transpose S256x256 [1, 0] (m ((c : Thread nD τ).loc main_arg3) : FVec Ideal S256x256 .f32)
        transposes_S256x256_S256x256_1_0) := by
    show StableHlo.after hostOps1 (W1 m ρ c) (Proc.devRef .tc main_v5) = _
    after_results
    rw [W1_arg3]
  rw [e]
  exact lin_w_transposed_at _ p o

/-- The linear layer's bias as a row, read at `(0, o)`. -/
theorem V2_v6_at (c : Dev nD) (o : Fin 256) :
    V2 m ρ c main_v6 (ix2 (0 : Fin 1) o) = m ((c : Thread nD τ).loc main_arg4) (ix1 o) := by
  have e : @Eq (FVec Ideal S1x256 .f32) (V2 m ρ c main_v6)
      (shapeCast S1x256 (m ((c : Thread nD τ).loc main_arg4) : FVec Ideal S256 .f32) shapeCasts_S256_S1x256) := by
    show StableHlo.after hostOps1 (W1 m ρ c) (Proc.devRef .tc main_v6) = _
    after_results
    rw [W1_arg4]
    rfl
  rw [e]
  exact lin_b_row_at _ o

/-! ## The result -/

/-- What the second call leaves is the specification's `out`, once the arrays it finds are what the host steps and the
    first call make of the arguments: the scaled projection, the column of inverse square-root degrees, the transposed
    linear matrix and the bias as a row. -/
theorem mainG_eq_out (adj : S8192x8192.Idx → EReal) (x : S8192x512.Idx → EReal) (w : S512x256.Idx → EReal)
    (lw : S256x256.Idx → EReal) (lb : S256.Idx → EReal)
    (xs : S8192x256.Idx → EReal) (d : S8192x1.Idx → EReal) (lwT : S256x256.Idx → EReal) (lbr : S1x256.Idx → EReal)
    (hd : d = dcol adj) (hxs : ∀ (j : Fin 8192) (p : Fin 256), xs (ix2 j p) = dinv adj j * xw x w j p)
    (hlw : ∀ p o : Fin 256, lwT (ix2 p o) = lw (ix2 o p)) (hlb : ∀ o : Fin 256, lbr (ix2 (0 : Fin 1) o) = lb (ix1 o)) :
    mainG adj xs d lwT lbr = out adj x w lw lb := by
  funext i
  obtain ⟨r, o, rfl⟩ : ∃ (r : Fin 8192) (o : Fin 256), i = ix2 r o := ⟨i 0, i 1, eq_ix2 i⟩
  show (∑ p : Fin 256, max (d (ix2 r (0 : Fin 1)) * ((∑ j : Fin 8192, edge (adj (ix2 r j)) * xs (ix2 j p)) + xs (ix2 r p))) 0
        * lwT (ix2 p o)) + lbr (ix2 (0 : Fin 1) o)
    = (∑ p : Fin 256, max (dinv adj r * ((∑ j : Fin 8192, edge (adj (ix2 r j)) * (dinv adj j * xw x w j p)) + dinv adj r * xw x w r p)) 0
        * lw (ix2 o p)) + lb (ix1 o)
  simp only [hxs, hlw, hlb, hd]
  rfl

/-- The last boundary's contents of the result array are the specification's `out` of the five arguments. -/
theorem result_eq (c : Dev nD) :
    W3 m ρ c (Proc.devRef .tc main_v7)
      = out (m ((c : Thread nD τ).loc main_arg1)) (m ((c : Thread nD τ).loc main_arg0))
          (m ((c : Thread nD τ).loc main_arg2)) (m ((c : Thread nD τ).loc main_arg3))
          (m ((c : Thread nD τ).loc main_arg4)) := by
  refine (W3_arr m ρ c 5).trans ((main_final (V2 m ρ) c).trans ?_)
  rw [V2_arg1 m ρ c]
  exact mainG_eq_out (m ((c : Thread nD τ).loc main_arg1)) (m ((c : Thread nD τ).loc main_arg0))
    (m ((c : Thread nD τ).loc main_arg2)) (m ((c : Thread nD τ).loc main_arg3)) (m ((c : Thread nD τ).loc main_arg4))
    (V2 m ρ c main_v4) (V2 m ρ c main_v0) (V2 m ρ c main_v5) (V2 m ρ c main_v6)
    (V2_v0 m ρ c) (V2_v4_at m ρ c) (V2_v5_at m ρ c) (V2_v6_at m ρ c)

/-- The kernel program's run with its result at `out` of the arguments. -/
theorem run : θ_run defs (onTc (τ := τ) (main (F := Ideal))) ⟨m, fun _ => 0, ρ⟩ (fun r => ∀ c : Dev nD,
      r.2.mem ((c.tc : Thread nD τ).loc main_v7)
        = out (m ((c : Thread nD τ).loc main_arg1)) (m ((c : Thread nD τ).loc main_arg0))
            (m ((c : Thread nD τ).loc main_arg2)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_named m ρ)

end Cert.Gcn.Kernel

end
-- ==== Proof.RefValue.lean ====
/-
  The reference program's result, read at one element over the extended reals, is the closed form `Cert.Gcn.outR`:
  the adjacency weights thresholded at one half plus the identity matrix, its rows summed from zero, the sums to the
  power -1/2, the matrix scaled by them on rows and on columns, applied to the features, projected by the feature
  weights, clipped below at zero, and sent through the linear layer. One lemma per stage, each at explicit coordinates.
-/
import proofs.«119222_j33621003993517_2_alg».proof.Proof.Spec
import proofs.«119222_j33621003993517_2_alg».proof.Proof.Consts
import proofs.«119222_j33621003993517_2_alg».proof.Proof.Gen.ReferenceIdeal.Read

noncomputable section

namespace Cert.Gcn.Ref

open Cert.ReferenceIdeal Cert.ReferenceIdeal.Gen Cert.ReferenceIdeal.Read
open Idealize.ShloMosaic Idealize.ShloMosaic.ValueIdx

/-! ## The two matrices added: the thresholded weights and the identity -/

/-- Below `2 ^ 32` a natural number is determined by its 32-bit word. -/
theorem ofNat_inj (p q : Fin 8192) : BitVec.ofNat 32 p.val = BitVec.ofNat 32 q.val ↔ p = q := by
  constructor
  · intro h
    have h' := congrArg BitVec.toNat h
    simp only [BitVec.toNat_ofNat] at h'
    have hp := p.isLt
    have hq := q.isLt
    apply Fin.ext
    omega
  · rintro rfl
    rfl

/-- The identity matrix's entry: the comparison of the row number with the column number, converted to a float. -/
theorem eye_word (p q : Fin 8192) :
    (FloatOps.uitofp (F := Ideal) .f32
      (IntOp.cmpi .eq (IntOp.addi (BitVec.ofNat 32 p.val) 0#32) (BitVec.ofNat 32 q.val)) : EReal) = eye p q := by
  show (((BitVec.ofBool (BitVec.ofNat 32 p.val + 0#32 == BitVec.ofNat 32 q.val)).toNat : ℝ) : EReal) = _
  rw [BitVec.add_zero]
  unfold eye
  by_cases h : p = q
  · subst h
    simp
  · have hne : (BitVec.ofNat 32 p.val == BitVec.ofNat 32 q.val) = false := by
      rw [beq_eq_false_iff_ne]
      exact fun e => h ((ofNat_inj p q).1 e)
    rw [hne, if_neg h]
    simp

/-- The thresholded weight: 1 where the weight is above one half, 0 elsewhere. -/
theorem edge_at (x1 : (⟨S8192x8192, .f32⟩ : BufTy).Contents (Elt Ideal)) (p q : Fin 8192) :
    val_main_v2 (F := Ideal) x1 (ix2 p q) = edge (x1 (ix2 p q)) := by
  rw [val_main_v2_apply, val_main_v1_apply, val_main_v0_apply, val_main_cst_apply, val_main_call0_v0_apply,
    val_main_cst_0_apply, val_main_call0_v1_apply, val_main_cst_1_apply]
  simp only [Ideal.ofBits_def, Ideal.cmpf_def, Consts.one_f32, Consts.zero_f32]
  rfl

/-- The identity matrix's entry, as the program computes it. -/
theorem eye_at (p q : Fin 8192) : val_main_v8 (F := Ideal) (ix2 p q) = eye p q := by
  rw [val_main_v8_apply, val_main_v7_apply, val_main_v6_apply, val_main_v3_apply, val_main_v4_apply, val_main_v5_apply,
    val_main_c_apply]
  exact eye_word p q

/-- The adjacency matrix with self-loops. -/
theorem adjI_at (x1 : (⟨S8192x8192, .f32⟩ : BufTy).Contents (Elt Ideal)) (p q : Fin 8192) :
    val_main_v10 (F := Ideal) x1 (ix2 p q) = edge (x1 (ix2 p q)) + eye p q := by
  rw [val_main_v10_apply, val_main_v9_apply, edge_at, eye_at, Ideal.addf_def]

/-! ## The degrees and the normalized matrix -/

/-- The degree: the row of the matrix with self-loops, summed from zero. -/
theorem degR_at (x1 : (⟨S8192x8192, .f32⟩ : BufTy).Contents (Elt Ideal)) (p : Fin 8192) :
    val_main_v11 (F := Ideal) x1 (ix1 p) = degR x1 p := by
  rw [val_main_v11_apply, val_main_cst_2_apply]
  have hidx : ∀ k : Fin 8192, idx_main_v11 (ix1 p) k = ix2 p k := fun k =>
    funext fun a => Fin.ext (by match a with | ⟨0, _⟩ => rfl | ⟨1, _⟩ => rfl)
  simp only [hidx, adjI_at, Ideal.ofBits_def, Consts.zero_f32]
  rfl

/-- The degree to the power -1/2. -/
theorem dinvR_at (x1 : (⟨S8192x8192, .f32⟩ : BufTy).Contents (Elt Ideal)) (p : Fin 8192) :
    val_main_v12 (F := Ideal) x1 (ix1 p) = dinvR x1 p := by
  rw [val_main_v12_apply, degR_at, Ideal.hostUnary_rsqrt_def]
  rfl

/-- The scaling spread along the rows: every entry of row `p` reads node `p`'s. -/
theorem rowScale_at (x1 : (⟨S8192x8192, .f32⟩ : BufTy).Contents (Elt Ideal)) (p q : Fin 8192) :
    val_main_v14 (F := Ideal) x1 (ix2 p q) = dinvR x1 p := by
  rw [val_main_v14_apply, val_main_v13_apply]
  have hidx : idx_main_v13 (idx_main_v14 (ix2 p q)) = ix1 p :=
    funext fun a => Fin.ext (by match a with | ⟨0, _⟩ => rfl)
  rw [hidx, dinvR_at]

/-- The scaling spread along the columns: every entry of column `q` reads node `q`'s. -/
theorem colScale_at (x1 : (⟨S8192x8192, .f32⟩ : BufTy).Contents (Elt Ideal)) (p q : Fin 8192) :
    val_main_v17 (F := Ideal) x1 (ix2 p q) = dinvR x1 q := by
  rw [val_main_v17_apply, val_main_v16_apply]
  have hidx : idx_main_v16 (idx_main_v17 (ix2 p q)) = ix1 q :=
    funext fun a => Fin.ext (by match a with | ⟨0, _⟩ => rfl)
  rw [hidx, dinvR_at]

/-- The normalized adjacency matrix. -/
theorem ahat_at (x1 : (⟨S8192x8192, .f32⟩ : BufTy).Contents (Elt Ideal)) (p q : Fin 8192) :
    val_main_v18 (F := Ideal) x1 (ix2 p q) = ahat x1 p q := by
  rw [val_main_v18_apply, val_main_v15_apply, adjI_at, rowScale_at, colScale_at, Ideal.mulf_def, Ideal.mulf_def]
  rfl

/-! ## The two products, the clip at zero, the linear layer -/

/-- The normalized matrix applied to the features. -/
theorem agg_at (x0 : (⟨S8192x512, .f32⟩ : BufTy).Contents (Elt Ideal))
    (x1 : (⟨S8192x8192, .f32⟩ : BufTy).Contents (Elt Ideal)) (p : Fin 8192) (k : Fin 512) :
    val_main_v19 (F := Ideal) x0 x1 (ix2 p k) = ∑ j : Fin 8192, ahat x1 p j * x0 (ix2 j k) := by
  rw [val_main_v19_apply]
  refine Finset.sum_congr rfl fun j _ => ?_
  have hl : lidx_main_v19 (ix2 p k) j = ix2 p j :=
    funext fun a => Fin.ext (by match a with | ⟨0, _⟩ => rfl | ⟨1, _⟩ => rfl)
  have hr : ridx_main_v19 (ix2 p k) j = ix2 j k :=
    funext fun a => Fin.ext (by match a with | ⟨0, _⟩ => rfl | ⟨1, _⟩ => rfl)
  rw [hl, hr, ahat_at]

/-- The combined features projected by the feature weights. -/
theorem proj_at (x0 : (⟨S8192x512, .f32⟩ : BufTy).Contents (Elt Ideal))
    (x1 : (⟨S8192x8192, .f32⟩ : BufTy).Contents (Elt Ideal)) (x2 : (⟨S512x256, .f32⟩ : BufTy).Contents (Elt Ideal))
    (p : Fin 8192) (q : Fin 256) :
    val_main_v20 (F := Ideal) x0 x1 x2 (ix2 p q)
      = ∑ k : Fin 512, (∑ j : Fin 8192, ahat x1 p j * x0 (ix2 j k)) * x2 (ix2 k q) := by
  rw [val_main_v20_apply]
  refine Finset.sum_congr rfl fun k _ => ?_
  have hl : lidx_main_v20 (ix2 p q) k = ix2 p k :=
    funext fun a => Fin.ext (by match a with | ⟨0, _⟩ => rfl | ⟨1, _⟩ => rfl)
  have hr : ridx_main_v20 (ix2 p q) k = ix2 k q :=
    funext fun a => Fin.ext (by match a with | ⟨0, _⟩ => rfl | ⟨1, _⟩ => rfl)
  rw [hl, hr, agg_at]

/-- The hidden layer: the projection clipped below at zero. -/
theorem hiddenR_at (x0 : (⟨S8192x512, .f32⟩ : BufTy).Contents (Elt Ideal))
    (x1 : (⟨S8192x8192, .f32⟩ : BufTy).Contents (Elt Ideal)) (x2 : (⟨S512x256, .f32⟩ : BufTy).Contents (Elt Ideal))
    (p : Fin 8192) (q : Fin 256) :
    val_main_v21 (F := Ideal) x0 x1 x2 (ix2 p q) = hiddenR x1 x0 x2 p q := by
  rw [val_main_v21_apply, proj_at, val_main_call1_v0_apply, val_main_call1_cst_apply, Ideal.ofBits_def, Consts.zero_f32,
    Ideal.maximumf_def]
  rfl

/-- The linear layer's matrix, transposed. -/
theorem lwT_at (x3 : (⟨S256x256, .f32⟩ : BufTy).Contents (Elt Ideal)) (a b : Fin 256) :
    val_main_v22 (F := Ideal) x3 (ix2 a b) = x3 (ix2 b a) := by
  rw [val_main_v22_apply]
  exact congrArg x3 (funext fun d => Fin.ext (by match d with | ⟨0, _⟩ => rfl | ⟨1, _⟩ => rfl))

/-- The hidden layer times the transposed matrix. -/
theorem linear_at (x0 : (⟨S8192x512, .f32⟩ : BufTy).Contents (Elt Ideal))
    (x1 : (⟨S8192x8192, .f32⟩ : BufTy).Contents (Elt Ideal)) (x2 : (⟨S512x256, .f32⟩ : BufTy).Contents (Elt Ideal))
    (x3 : (⟨S256x256, .f32⟩ : BufTy).Contents (Elt Ideal)) (p : Fin 8192) (q : Fin 256) :
    val_main_v23 (F := Ideal) x0 x1 x2 x3 (ix2 p q) = ∑ r : Fin 256, hiddenR x1 x0 x2 p r * x3 (ix2 q r) := by
  rw [val_main_v23_apply]
  refine Finset.sum_congr rfl fun r _ => ?_
  have hl : lidx_main_v23 (ix2 p q) r = ix2 p r :=
    funext fun a => Fin.ext (by match a with | ⟨0, _⟩ => rfl | ⟨1, _⟩ => rfl)
  have hr : ridx_main_v23 (ix2 p q) r = ix2 r q :=
    funext fun a => Fin.ext (by match a with | ⟨0, _⟩ => rfl | ⟨1, _⟩ => rfl)
  rw [hl, hr, hiddenR_at, lwT_at]

/-- The bias spread over the rows. -/
theorem bias_at (x4 : (⟨S256, .f32⟩ : BufTy).Contents (Elt Ideal)) (p : Fin 8192) (q : Fin 256) :
    val_main_v25 (F := Ideal) x4 (ix2 p q) = x4 (ix1 q) := by
  rw [val_main_v25_apply, val_main_v24_apply]
  exact congrArg x4 (funext fun d => Fin.ext (by match d with | ⟨0, _⟩ => rfl))

/-! ## The result -/

/-- The reference program's result is the closed form `outR` of the adjacency weights, the features, the feature
    weights, the linear layer's matrix and its bias. -/
theorem result_eq (x0 : (⟨S8192x512, .f32⟩ : BufTy).Contents (Elt Ideal))
    (x1 : (⟨S8192x8192, .f32⟩ : BufTy).Contents (Elt Ideal)) (x2 : (⟨S512x256, .f32⟩ : BufTy).Contents (Elt Ideal))
    (x3 : (⟨S256x256, .f32⟩ : BufTy).Contents (Elt Ideal)) (x4 : (⟨S256, .f32⟩ : BufTy).Contents (Elt Ideal)) :
    val_main_v26 (F := Ideal) x0 x1 x2 x3 x4 = outR x1 x0 x2 x3 x4 := by
  funext i
  obtain ⟨p, q, rfl⟩ : ∃ (p : Fin 8192) (q : Fin 256), i = ix2 p q := ⟨i 0, i 1, eq_ix2 i⟩
  rw [val_main_v26_apply, linear_at, bias_at, Ideal.addf_def]
  rfl

end Cert.Gcn.Ref

end
-- ==== Proof.Law.lean ====
/-
  The two closed forms of the layer agree when the features and the feature weights are real numbers.

  The mathematics.  Write e(i,j) ∈ {0, 1} for the edge indicator, d(i) for the degree of node i (with its self-loop) to the
  power -1/2, and y(j,p) = Σ_k x(j,k) · w(k,p) for the projected features.

  (a) The two degrees agree: Σ_j (e(i,j) + [i = j]) = Σ_j e(i,j) + 1, in any additive commutative monoid, and 0 + s = s.
      The degree is a real number ≥ 1, so its power -1/2 is a real number too.
  (b) Over the real numbers,
        Σ_k ( Σ_j ((e(i,j) + [i = j]) · d(i) · d(j)) · x(j,k) ) · w(k,p)
          = d(i) · ( Σ_j e(i,j) · (d(j) · y(j,p)) + d(i) · y(i,p) ),
      by distributivity, exchanging the two sums, and collapsing the identity's row.  This is false in general over the
      extended reals (their multiplication does not distribute over sums of opposite infinities), which is why the
      entries are first shown to be real and the identity is transported along the coercion ℝ → EReal.
-/
import proofs.«119222_j33621003993517_2_alg».proof.Proof.Spec
import Mathlib

noncomputable section

namespace Cert.Gcn

open Idealize.ShloMosaic Idealize.ShloMosaic.ValueIdx

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law (b) over the reals, on arbitrary finite index types. -/
theorem law_real {N K : Type*} [Fintype N] [Fintype K] [DecidableEq N]
    (e : N → N → ℝ) (d : N → ℝ) (x : N → K → ℝ) (w : K → ℝ) (i : N) :
    ∑ k, (∑ j, ((e i j + if i = j then 1 else 0) * d i * d j) * x j k) * w k
      = d i * (∑ j, e i j * (d j * ∑ k, x j k * w k) + d i * ∑ k, x i k * w k) := by
  -- exchange the two sums and factor the inner one
  have h1 : ∑ k, (∑ j, ((e i j + if i = j then 1 else 0) * d i * d j) * x j k) * w k
      = ∑ j, ((e i j + if i = j then 1 else 0) * d i * d j) * ∑ k, x j k * w k := by
    simp only [Finset.sum_mul]
    rw [Finset.sum_comm]
    refine Finset.sum_congr rfl fun j _ => ?_
    rw [Finset.mul_sum]
    refine Finset.sum_congr rfl fun k _ => ?_
    ring
  -- split each term into the edge's part and the identity's part
  have h2 : ∀ j, ((e i j + if i = j then 1 else 0) * d i * d j) * ∑ k, x j k * w k
      = d i * (e i j * (d j * ∑ k, x j k * w k)) + (if i = j then d i * (d j * ∑ k, x j k * w k) else 0) := by
    intro j
    split_ifs <;> ring
  rw [h1]
  simp only [h2]
  rw [Finset.sum_add_distrib, Finset.sum_ite_eq, ← Finset.mul_sum]
  simp only [Finset.mem_univ, if_true]
  ring

/-- The law (b) over the extended reals, every entry being the coercion of a real. -/
theorem law_ereal {N K : Type*} [Fintype N] [Fintype K] [DecidableEq N]
    (e : N → N → ℝ) (d : N → ℝ) (x : N → K → ℝ) (w : K → ℝ) (i : N) :
    ∑ k, (∑ j, (((e i j : EReal) + if i = j then (1 : EReal) else 0) * (d i : EReal) * (d j : EReal)) * (x j k : EReal))
          * (w k : EReal)
      = (d i : EReal) * (∑ j, (e i j : EReal) * ((d j : EReal) * ∑ k, (x j k : EReal) * (w k : EReal))
          + (d i : EReal) * ∑ k, (x i k : EReal) * (w k : EReal)) := by
  have hite : ∀ j, (if i = j then (1 : EReal) else 0) = (((if i = j then (1 : ℝ) else 0) : ℝ) : EReal) := by
    intro j; split_ifs <;> simp
  simp only [hite, ← EReal.coe_mul, ← EReal.coe_add, ← coe_sum]
  rw [law_real]

/-- An edge indicator is the real number 0 or 1; in particular a nonnegative real. -/
theorem edge_real (a : EReal) : ∃ r : ℝ, 0 ≤ r ∧ edge a = (r : EReal) := by
  unfold edge Scalar.select
  split_ifs
  · exact ⟨1, zero_le_one, by simp⟩
  · exact ⟨0, le_refl 0, by simp⟩

/-- (a) The row sum of the adjacency matrix with the identity added is the number of edges plus one. -/
theorem degR_eq_deg (adj : AdjIdx → EReal) (i : Fin 8192) : degR adj i = deg adj i := by
  unfold degR deg eye
  rw [zero_add, Finset.sum_add_distrib, Finset.sum_ite_eq]
  simp only [Finset.mem_univ, if_true]

theorem dinvR_eq_dinv (adj : AdjIdx → EReal) (i : Fin 8192) : dinvR adj i = dinv adj i := by
  unfold dinvR dinv
  rw [degR_eq_deg]

/-- The degree is a real number ≥ 1, so its power -1/2 is a real number. -/
theorem dinv_real (adj : AdjIdx → EReal) (i : Fin 8192) : ∃ r : ℝ, dinv adj i = (r : EReal) := by
  choose e he0 he using fun j : Fin 8192 => edge_real (adj (ix2 i j))
  have hpos : 0 < ∑ j, e j + 1 := by
    have := Finset.sum_nonneg (fun j (_ : j ∈ Finset.univ) => he0 j)
    linarith
  unfold dinv deg
  simp only [he]
  rw [← coe_sum, ← EReal.coe_one, ← EReal.coe_add, Ideal.rsqrt_coe,
    if_neg (not_lt.mpr hpos.le), if_neg hpos.ne']
  exact ⟨_, rfl⟩

/-- The two hidden layers agree when the features and the feature weights are real. -/
theorem hiddenR_eq_hidden (adj : AdjIdx → EReal) (x : XIdx → EReal) (w : WIdx → EReal)
    (hx : ∀ i, ∃ r : ℝ, x i = (r : EReal)) (hw : ∀ i, ∃ r : ℝ, w i = (r : EReal))
    (i : Fin 8192) (p : Fin 256) : hiddenR adj x w i p = hidden adj x w i p := by
  choose e _ he using fun i j : Fin 8192 => edge_real (adj (ix2 i j))
  choose d hd using dinv_real adj
  choose xr hxr using hx
  choose wr hwr using hw
  unfold hiddenR hidden ahat xw eye
  simp only [dinvR_eq_dinv, he, hd, hxr, hwr]
  rw [law_ereal e d (fun j k => xr (ix2 j k)) (fun k => wr (ix2 k p)) i]

/-- The two closed forms agree when the features and the feature weights are real numbers. -/
theorem outR_eq_out (adj : AdjIdx → EReal) (x : XIdx → EReal) (w : WIdx → EReal) (lw : LwIdx → EReal)
    (lb : LbIdx → EReal) (hx : ∀ i, ∃ r : ℝ, x i = (r : EReal)) (hw : ∀ i, ∃ r : ℝ, w i = (r : EReal)) :
    outR adj x w lw lb = out adj x w lw lb := by
  have h : hiddenR adj x w = hidden adj x w :=
    funext fun i => funext fun p => hiddenR_eq_hidden adj x w hx hw i p
  funext i
  unfold outR out
  rw [h]

end Cert.Gcn

end
-- ==== Proof.Finite.lean ====
/-
  From the precondition, the features (argument 0) and the feature weights (argument 2) are real numbers.

  The precondition is the conjunction, over the five arguments, of "every entry x satisfies |x| < +∞", each conjunct a
  reduction by "and" of the array of comparisons.  The conjunction being true, each conjunct is; a reduction by "and" over
  all axes being true, every compared entry is; and an extended real x with max x (-x) < ⊤ is neither ⊥ nor ⊤, so it is
  the coercion of a real number.
-/
import proofs.«119222_j33621003993517_2_alg».proof.Defs
import proofs.«119222_j33621003993517_2_alg».proof.Proof.Gen.Pre_finite_inputs
import proofs.«119222_j33621003993517_2_alg».proof.Proof.Consts
import Idealize.ShloMosaic.Lib.ReduceAll
import Idealize.ShloMosaic.Lib.ValueIdx
import Idealize.ShloMosaic.PureOps.Ideal.Laws

namespace Cert.Gcn.Fin

open Idealize.ShloMosaic Cert.Pre_finite_inputs

/-- The shape with no axes has one index. -/
instance : Subsingleton S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [Consts.inf_f32] at h
  induction x using EReal.rec with
  | bot => simp [Ideal.cmp] at h
  | coe r => exact ⟨r, rfl⟩
  | top => simp [Ideal.cmp] at h

/-- A conjunction of two one-index truth values that is true has both true. -/
theorem andi_ix0 (x y : IVec S_ 1) (h : andi x y ValueIdx.ix0 = 1#1) :
    x ValueIdx.ix0 = 1#1 ∧ y ValueIdx.ix0 = 1#1 :=
  IntOp.andi_eq_one.1 h

/-- "All entries have absolute value below +∞", read back at one entry. -/
theorem real_of_all {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] hb (constant S_ .f32 0x7F800000#32)))
          (constantI S_ 1 1#1) hr hu ValueIdx.ix0 = 1#1)
    (i : s.Idx) : ∃ r : ℝ, a i = (r : EReal) :=
  real_of_abs_lt (a i) (Host.reduce_andi_all _ _ hr hu _ h i)

variable [Facts]

/-- The features are real. -/
theorem x_real (a0 : FVec Ideal S8192x512 .f32) (a1 : FVec Ideal S8192x8192 .f32) (a2 : FVec Ideal S512x256 .f32)
    (a3 : FVec Ideal S256x256 .f32) (a4 : FVec Ideal S256 .f32)
    (h : fn (F := Ideal) a0 a1 a2 a3 a4 = fun _ => 1#1) : ∀ i, ∃ r : ℝ, a0 i = (r : EReal) := by
  intro i
  have h0 := congrFun h ValueIdx.ix0
  dsimp only [fn, fn_part1] at h0
  exact real_of_all _ _ _ a0 (andi_ix0 _ _ (andi_ix0 _ _ (andi_ix0 _ _ (andi_ix0 _ _ h0).1).1).1).1 i

/-- The feature weights are real. -/
theorem w_real (a0 : FVec Ideal S8192x512 .f32) (a1 : FVec Ideal S8192x8192 .f32) (a2 : FVec Ideal S512x256 .f32)
    (a3 : FVec Ideal S256x256 .f32) (a4 : FVec Ideal S256 .f32)
    (h : fn (F := Ideal) a0 a1 a2 a3 a4 = fun _ => 1#1) : ∀ i, ∃ r : ℝ, a2 i = (r : EReal) := by
  intro i
  have h0 := congrFun h ValueIdx.ix0
  dsimp only [fn, fn_part1] at h0
  exact real_of_all _ _ _ a2 (andi_ix0 _ _ (andi_ix0 _ _ (andi_ix0 _ _ h0).1).1).2 i

end Cert.Gcn.Fin
-- ==== Proof.RefRun.lean ====
/-
  The reference program's side of the final claim, and what the precondition says of the kernel's arguments.

  • The reference program runs and leaves its five argument arrays unchanged.
  • Its result array is the closed form "out" of its argument arrays, when the features and the feature weights are real
    numbers: the run's result term is the staged value of the last operation, which is the closed form "outR" (the
    normalized adjacency matrix formed first), and the two closed forms agree on real features and feature weights.
  • Under the precondition every feature and every feature weight of the kernel's memory is a real number.
-/
import proofs.«119222_j33621003993517_2_alg».proof.Defs
import proofs.«119222_j33621003993517_2_alg».proof.Proof.Gen.ReferenceIdeal.Read
import proofs.«119222_j33621003993517_2_alg».proof.Proof.Gen.ReferenceIdeal
import proofs.«119222_j33621003993517_2_alg».proof.Proof.Gen.Pre_finite_inputs
import proofs.«119222_j33621003993517_2_alg».proof.Proof.RefValue
import proofs.«119222_j33621003993517_2_alg».proof.Proof.Law
import proofs.«119222_j33621003993517_2_alg».proof.Proof.Finite

noncomputable section

namespace Cert.Gcn.RefRun

open Idealize.ShloMosaic Idealize.ShloMosaic.TcCoe Idealize.SL.Sem

/-- The reference program runs and its argument arrays end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference program's result is the closed form "out" of its arguments, when the features and the feature weights
    are real; its argument arrays end unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hx : ∀ c : Dev Cert.ReferenceIdeal.nD, ∀ i, ∃ r : ℝ,
      m' ((c.tc : Thread Cert.ReferenceIdeal.nD Cert.ReferenceIdeal.τ).loc Cert.ReferenceIdeal.main_arg0) i = (r : EReal))
    (hw : ∀ c : Dev Cert.ReferenceIdeal.nD, ∀ i, ∃ r : ℝ,
      m' ((c.tc : Thread Cert.ReferenceIdeal.nD Cert.ReferenceIdeal.τ).loc Cert.ReferenceIdeal.main_arg2) i = (r : EReal)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v26)
          = Cert.Gcn.out
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  refine (θ_run Cert.ReferenceIdeal.defs _ _).mono (fun _ h c => ⟨(h c).1.trans ?_, (h c).2⟩)
    (Cert.ReferenceIdeal.Value.run (F := Ideal) m' ρ')
  exact ((Cert.ReferenceIdeal.Read.val_main_v26_eq _ _ _ _ _).trans (Cert.Gcn.Ref.result_eq _ _ _ _ _)).trans
    (Cert.Gcn.outR_eq_out _ _ _ _ _ (hx c) (hw c))

/-- Under the precondition, the features and the feature weights in the kernel's memory are real numbers. -/
theorem pre_real (m : (ℓ : Loc Cert.KernelIdeal.nD Cert.KernelIdeal.τ Cert.KernelIdeal.sig) → Buf (Elt Ideal) ℓ)
    (h : Cert.Pre_KernelIdeal m) : ∀ c : Dev Cert.KernelIdeal.nD,
      (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal)) :=
  fun c => ⟨Cert.Gcn.Fin.x_real _ _ _ _ _ (h c), Cert.Gcn.Fin.w_real _ _ _ _ _ (h c)⟩

end Cert.Gcn.RefRun

end
-- ==== Proof.lean ====
/-
  The kernel and its reference compute one normalized graph-convolution layer followed by a linear layer:
  from adjacency weights `adj` [8192, 8192], features `x` [8192, 512], feature weights `w` [512, 256] and a linear layer
  `lw` [256, 256], `lb` [256]. An adjacency weight above one half is an edge; with self-loops added, node `i` has degree
  `1 + #edges(i)`, and `d i` is that degree to the power -1/2.

  The reference forms the normalized adjacency matrix `Â(i,j) = (edge(i,j) + [i = j]) · d i · d j`, applies it to the features,
  projects by `w`, takes the positive part, and applies the linear layer. The kernel never forms `Â`: a first pallas_call
  computes the column `d` (sixteen blocks of 512 rows); the host projects the features once, `x · w`, and scales row `j` of
  the projection by `d j`; a second pallas_call (thirty-two blocks of 256 rows) multiplies the 0/1 edge rows by the scaled
  projection, adds the block's own rows of it (the self-loop), scales row `i` by `d i`, takes the positive part and applies
  the linear layer.

  Over the extended reals the two agree when the features and the feature weights are real numbers, which the
  precondition gives: the edge indicator is 0 or 1 whatever the weight, the degree is a real number at least 1, so `d` is
  real; then  Σ_k (Σ_j Â(i,j) · x(j,k)) · w(k,p) = d i · (Σ_j edge(i,j) · (d j · (x·w)(j,p)) + d i · (x·w)(i,p))  by distributivity,
  exchanging the two sums, and reading the identity matrix's row as the single term j = i. (Without finiteness
  distributivity fails at the infinities.) The linear layer's matrix and bias enter both sides in the same way and need no
  hypothesis.

  Modules: Spec (the two closed forms `outR`, `out`), Law (`outR = out` for real features and weights), Finite (the
  precondition makes them real), RefValue and RefRun (the reference's run ends at `outR`, hence at `out`), DegPayload and
  DegArray (the first call leaves the column `d`), HostStage (the host steps read at an index), MainPiece, MainPayload,
  MainCover and MainArray (the second call leaves one function of the five arrays it finds), KernelRun and KernelValue (the
  kernel's run ends at `out`), Consts (the float literals), LibKeepdims (layout steps of a kept-dimension row sum), LibRowSumZero (a row sum from a zero
  accumulator read at a row).
-/
import proofs.«119222_j33621003993517_2_alg».proof.Defs
import proofs.«119222_j33621003993517_2_alg».proof.Proof.Gen.Kernel
import proofs.«119222_j33621003993517_2_alg».proof.Proof.Gen.Kernel.Skeleton
import proofs.«119222_j33621003993517_2_alg».proof.Proof.Gen.Kernel.Launch
import proofs.«119222_j33621003993517_2_alg».proof.Proof.Gen.Kernel.Points
import proofs.«119222_j33621003993517_2_alg».proof.Proof.Gen.Kernel.Frame
import proofs.«119222_j33621003993517_2_alg».proof.Proof.Gen.KernelIdeal
import proofs.«119222_j33621003993517_2_alg».proof.Proof.Gen.KernelIdeal.Skeleton
import proofs.«119222_j33621003993517_2_alg».proof.Proof.Gen.KernelIdeal.Launch
import proofs.«119222_j33621003993517_2_alg».proof.Proof.Gen.KernelIdeal.Points
import proofs.«119222_j33621003993517_2_alg».proof.Proof.Gen.KernelIdeal.Frame
import proofs.«119222_j33621003993517_2_alg».proof.Proof.Gen.ReferenceIdeal
import proofs.«119222_j33621003993517_2_alg».proof.Proof.Gen.Pre_finite_inputs
import proofs.«119222_j33621003993517_2_alg».proof.Proof.Gen.ReferenceIdeal.Run
import proofs.«119222_j33621003993517_2_alg».proof.Proof.Gen.ReferenceIdeal.Read
import proofs.«119222_j33621003993517_2_alg».proof.Proof.KernelValue
import proofs.«119222_j33621003993517_2_alg».proof.Proof.RefRun
import Idealize.ShloMosaic.Adequacy
import Idealize.ShloMosaic.Init

noncomputable section

namespace Cert.Proof

open Idealize.ShloMosaic Idealize.SL.Sem

/-- The word-level kernel runs, nothing faults, and its arguments end unchanged. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- No operation of the kernel was rewritten when it was read over the extended reals: nothing to preserve. -/
theorem preserves : Cert.preserves_Kernel_KernelIdeal := trivial

/-- From memories agreeing on the five arguments, real features and weights, both programs end with the result at
    `out` of the arguments: the kernel by its two calls read as whole arrays, the reference by its operations read at
    an index and the law joining the two closed forms. -/
theorem algebraic : Cert.algebraic_KernelIdeal_ReferenceIdeal := by
  intro m ρ m' ρ' hpre hagree
  have hreal := Cert.Gcn.RefRun.pre_real m hpre
  refine ⟨fun c => Cert.Gcn.out (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Gcn.Kernel.run m ρ, ?_⟩
  refine (θ_run Cert.ReferenceIdeal.defs _ _).mono (fun _ h c => ⟨(h c).1.trans ?_, (h c).2⟩)
    (Cert.Gcn.RefRun.ref_run m' ρ'
      (fun c i => by rw [(hagree c).1]; exact (hreal c).1 i)
      (fun c i => by rw [(hagree c).2.2.1]; exact (hreal c).2 i))
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, Cert.Gcn.RefRun.frame_ri, preserves, algebraic⟩

end Cert.Proof

end
